-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel

variable [Facts]

def fn {F : FTy → Type} [FloatOps F] (main_arg0 : FVec F S8x4096x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  main_v3
-- ==== Kernel.lean ====
abbrev S8x4096x1024 : Shape := ⟨3, ![8, 4096, 1024]⟩
abbrev S1x2048x1024 : Shape := ⟨3, ![1, 2048, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x2048x1024, .f32⟩
  | .local _ .vmem, ⟨3, _⟩ => ⟨S1x2048x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x2048x1024_S1x2048x1024_0_0_0 : ∀ a, (![0, 0, 0] : Fin 3 → Nat) a + S1x2048x1024.size a ≤ S1x2048x1024.size a
  h_S1x2048x1024 : 0 < S1x2048x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x4096x1024.size a
  hwx0_0 : ∀ i : grid0.Coords, EltTy.bits .f32 = 32 ∨ (Rect.block (s := S8x4096x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x4096x1024.size a
  hwx0_1 : ∀ i : grid0.Coords, EltTy.bits .f32 = 32 ∨ (Rect.block (s := S8x4096x1024) S1x2048x1024.size (cc0_transform_1 i) (hinb0_1 i)).WholeWords (EltTy.packing .f32)

variable [Facts₀]

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S8x4096x1024 : Shape := ⟨3, ![8, 4096, 1024]⟩

abbrev nBuf : Space → Nat
  | .hbm => 1
  | .vmem => 0
  | .smem => 0
  | _ => 0

abbrev bufTy : (tb : Table) → Fin (tcTables nBuf tb) → BufTy
  | .hbm, ⟨0, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.CopyValue.lean ====
/-
  The idealized kernel's result array.

  The grid has 8 × 2 points. At the point with coordinates (b, i) the input window and the output window both sit at
  block index (b, i, 0) of the f32[8, 4096, 1024] array, a block being 1 × 2048 × 1024 entries: rows
  2048·i … 2048·i + 2047 of batch b, all 1024 columns. The body loads the whole input block and stores it, unchanged,
  over the whole output block. So what a point writes back is the argument array read through that point's output block,
  and since the sixteen blocks tile the array — the entry (b, r, k) lies in the block of the point (b, r / 2048) —
  the result array ends equal to the argument array, entry by entry. No arithmetic is done, so nothing here depends on the
  entries being finite.
-/
import proofs.«150133_j28432683499934_2_alg».proof.Proof.Gen.KernelIdeal.Value

noncomputable section

namespace Cert.KernelIdeal.Copy

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The body's load and store both start at offset zero on every axis of the block. -/
theorem zero_offsets : (![0, 0, 0] : Fin 3 → Nat) = fun _ => 0 := funext fun a => by fin_cases a <;> rfl

/-- At every grid point the input block and the output block have the same block index on each of the three axes;
    the output's batch index is at most 7, its row-block index at most 1 and its column-block index 0. -/
theorem same_block : ∀ t : Fin cfg0.N,
    win0_0.index t (0 : Fin 3) = win0_1.index t (0 : Fin 3)
    ∧ win0_0.index t (1 : Fin 3) = win0_1.index t (1 : Fin 3)
    ∧ win0_0.index t (2 : Fin 3) = win0_1.index t (2 : Fin 3)
    ∧ win0_1.index t (0 : Fin 3) ≤ 7 ∧ win0_1.index t (1 : Fin 3) ≤ 1 ∧ win0_1.index t (2 : Fin 3) = 0 :=
  (by decide +kernel : ∀ t : Fin grid0.N, _)

/-- Every block index (b, i, 0) with b < 8 and i < 2 is the output block of some grid point. -/
theorem every_block : ∀ (b : Fin 8) (i : Fin 2), ∃ t : Fin cfg0.N, win0_1.index t = ![b.val, i.val, 0] :=
  (by decide +kernel : ∀ (b : Fin 8) (i : Fin 2), ∃ t : Fin grid0.N, win0_1.index t = ![b.val, i.val, 0])

/-- What grid point `t` writes back is the argument array (as the region finds it) read through `t`'s output block:
    the store's payload is the loaded input block, and the input block sits where the output block sits. -/
theorem written_block (c : Dev nD) (t : Fin cfg0.N) :
    (dats m 0 c).flushed 1 t = ((cfg0.win 1).blk t).view.read (Elt F) (V m c main_arg0) := by
  show (cfg0.win 1).cut (grid0.coords t) ((dats m 0 c).after 1 t) = _
  rw [after0_1]
  unfold out0_1
  rw [View.canon_unit_zero zero_offsets]
  simp only [View.ld_unit_zero (S := S1x2048x1024) zero_offsets]
  obtain ⟨e0, e1, e2, -, -, -⟩ := same_block t
  funext j
  show V m c main_arg0 (((cfg0.win 0).blk t).view.emb j) = V m c main_arg0 (((cfg0.win 1).blk t).view.emb j)
  have h0 : ((cfg0.win 0).blk t).view.emb j = ((cfg0.win 1).blk t).view.emb j := by
    funext a; apply Fin.ext
    match a with
    | ⟨0, _⟩ => show win0_0.index t (0 : Fin 3) * 1 + 1 * (j 0).val = win0_1.index t (0 : Fin 3) * 1 + 1 * (j 0).val; omega
    | ⟨1, _⟩ => show win0_0.index t (1 : Fin 3) * 2048 + 1 * (j 1).val = win0_1.index t (1 : Fin 3) * 2048 + 1 * (j 1).val; omega
    | ⟨2, _⟩ => show win0_0.index t (2 : Fin 3) * 1024 + 1 * (j 2).val = win0_1.index t (2 : Fin 3) * 1024 + 1 * (j 2).val; omega
  rw [h0]

/-- An entry of the array lies in point `t`'s output block exactly when, on each axis, its coordinate is within the
    block's extent from the block's first coordinate (block index × block extent). -/
theorem in_block (t : Fin cfg0.N) (i : S8x4096x1024.Idx) :
    i ∈ ((cfg0.win 1).blk t).view.set ↔ ∀ a : Fin 3, win0_1.index t a * S1x2048x1024.size a ≤ (i a).val ∧ (i a).val < win0_1.index t a * S1x2048x1024.size a + S1x2048x1024.size a := by
  show i ∈ ((View.whole main_v0).slice (win0_1.rect t)).set ↔ _
  rw [View.set_slice_whole, Rect.mem_set_unit]
  exact Iff.rfl

/-- The blocks tile the array: the entry (b, r, k) is in the output block of the point whose block index is
    (b, r / 2048, 0), and every point writes its block back. -/
theorem tiled (i : S8x4096x1024.Idx) :
    ∃ t : Fin cfg0.N, (cfg0.win 1).flush t = true ∧ i ∈ ((cfg0.win 1).blk t).view.set := by
  have hi0 : (i 0).val < 8 := (i 0).isLt
  have hi1 : (i 1).val < 4096 := (i 1).isLt
  have hi2 : (i 2).val < 1024 := (i 2).isLt
  obtain ⟨t, ht⟩ := every_block ⟨(i 0).val, hi0⟩ ⟨(i 1).val / 2048, by omega⟩
  have q0 : win0_1.index t (0 : Fin 3) = (i 0).val := congrFun ht 0
  have q1 : win0_1.index t (1 : Fin 3) = (i 1).val / 2048 := congrFun ht 1
  have q2 : win0_1.index t (2 : Fin 3) = 0 := congrFun ht 2
  refine ⟨t, flush0_1 t, ?_⟩
  rw [in_block]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 2048 ≤ (i 1).val ∧ (i 1).val < win0_1.index t (1 : Fin 3) * 2048 + 2048; omega
  | ⟨2, _⟩ => show win0_1.index t (2 : Fin 3) * 1024 ≤ (i 2).val ∧ (i 2).val < win0_1.index t (2 : Fin 3) * 1024 + 1024; omega

/-- The result array after all sixteen points is the argument array as launched. -/
theorem result_is_argument (c : Dev nD) :
    (dats m 0 c).arrAt 1 cfg0.N = m ((c : Thread nD τ).loc main_arg0) :=
  ((dats m 0 c).arrAt_eq_of_cover 1 (V m c main_arg0) (fun t _ => written_block m c t) tiled).trans (V_main_arg0 m c)

/-- Every weakly fair execution of the idealized kernel terminates with its result array equal to its argument array
    and the argument array unchanged. -/
theorem run : θ_run defs (onTc (τ := τ) (main (F := F))) ⟨m, fun _ => 0, ρ⟩ fun r => ∀ c : Dev nD,
      r.2.mem ((c : Thread nD τ).loc main_v0) = m ((c : Thread nD τ).loc main_arg0)
      ∧ r.2.mem ((c : Thread nD τ).loc main_arg0) = m ((c : Thread nD τ).loc main_arg0) :=
  (θ_run defs _ _).mono (fun r h c => ⟨(h c).1.trans (result_is_argument m c), (h c).2⟩)
    (Cert.KernelIdeal.Value.run_blocks m ρ)

end Cert.KernelIdeal.Copy

end
-- ==== Proof.RefRun.lean ====
/-
  The idealized reference's run.

  The reference returns its argument: its @main performs no host operation at all, and its one result IS the buffer of
  its argument. So every execution ends at once with every buffer — the argument's in particular — holding what it held
  at launch.
-/
import proofs.«150133_j28432683499934_2_alg».proof.Proof.Gen.ReferenceIdeal
import Idealize.ShloMosaic.Lib.StableHlo.Run

noncomputable section

namespace Cert.ReferenceIdeal.Returned

open Cert.ReferenceIdeal Cert.ReferenceIdeal.Gen Idealize.ShloMosaic Idealize.ShloMosaic.TcCoe Idealize.SL.Sem Idealize.ShloMosaic.StableHlo

variable {F : FTy → Type} [FloatOps F]

/-- @main's host operations, in order: none. -/
abbrev ops : List (HloOp τ sig (Elt F)) := []

/-- @main is the empty line of operations followed by the return. -/
theorem main_eq (c : Dev nD) : main (F := F) c = seq ops := rfl

/-- The signature scopes no buffer and no semaphore (there is no kernel, so no staging). -/
theorem scopedRefs_eq : (Finset.univ.filter fun b : Ref sig .tc => b.isScoped) = ∅ := by decide
theorem scopedSems_eq : (Finset.univ.filter fun sm : SemLoc sig => sm.isScoped .tc) = ∅ := by decide

/-- On every device, from any memory with zero counters: every weakly fair execution of @main terminates with the
    argument's buffer — which is also the result's — holding its launch contents. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0) :=
  (θ_run defs _ _).mono (fun _ h c => (h c main_arg0).trans rfl)
    (run_seq scopedRefs_eq scopedSems_eq defs main (fun _ => ops) main_eq (fun _ => trivial) m ρ)

end Cert.ReferenceIdeal.Returned

end
-- ==== Proof.lean ====
/-
  The kernel is a tiled copy and the reference is the identity.

  The kernel walks an 8 × 2 grid over an f32[8, 4096, 1024] array; at each point it loads one 1 × 2048 × 1024 block of
  its argument and stores it, unchanged, to the block at the same position of its result. The sixteen blocks tile the
  array, so the result array ends equal to the argument array (Proof/CopyValue.lean). The reference returns its argument
  without performing any operation (Proof/RefRun.lean). From memories that agree on the argument, both programs
  therefore end with the same array, entry by entry, as extended reals: no arithmetic is involved, and the finiteness of
  the inputs is never used.

  The three programs each terminate without a fault and leave their argument arrays unchanged: for the kernel and its
  idealization that is the generated frame, for the reference it is its run. The idealization rewrote no operation of
  the kernel, so there is nothing to preserve beyond the program's own text.
-/
import proofs.«150133_j28432683499934_2_alg».proof.Defs
import proofs.«150133_j28432683499934_2_alg».proof.Proof.Gen.Kernel
import proofs.«150133_j28432683499934_2_alg».proof.Proof.Gen.Kernel.Skeleton
import proofs.«150133_j28432683499934_2_alg».proof.Proof.Gen.Kernel.Launch
import proofs.«150133_j28432683499934_2_alg».proof.Proof.Gen.Kernel.Points
import proofs.«150133_j28432683499934_2_alg».proof.Proof.Gen.Kernel.Frame
import proofs.«150133_j28432683499934_2_alg».proof.Proof.Gen.KernelIdeal
import proofs.«150133_j28432683499934_2_alg».proof.Proof.Gen.KernelIdeal.Skeleton
import proofs.«150133_j28432683499934_2_alg».proof.Proof.Gen.KernelIdeal.Launch
import proofs.«150133_j28432683499934_2_alg».proof.Proof.Gen.KernelIdeal.Points
import proofs.«150133_j28432683499934_2_alg».proof.Proof.Gen.KernelIdeal.Frame
import proofs.«150133_j28432683499934_2_alg».proof.Proof.Gen.KernelIdeal.Value
import proofs.«150133_j28432683499934_2_alg».proof.Proof.Gen.ReferenceIdeal
import proofs.«150133_j28432683499934_2_alg».proof.Proof.Gen.Pre_finite_inputs
import proofs.«150133_j28432683499934_2_alg».proof.Proof.CopyValue
import proofs.«150133_j28432683499934_2_alg».proof.Proof.RefRun
import Idealize.ShloMosaic.Adequacy
import Idealize.ShloMosaic.Init

noncomputable section

namespace Cert.Proof

open Idealize.ShloMosaic Idealize.SL.Sem

/-- The kernel as printed terminates, faults nowhere, and leaves its argument array unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference performs no operation: it ends at once with its argument array as launched. -/
theorem frame_reference : Cert.frame_ReferenceIdeal := fun m ρ _ => Cert.ReferenceIdeal.Returned.run (F := Ideal) m ρ

/-- No operation of the kernel was rewritten when it was idealized. -/
theorem preserves : Cert.preserves_Kernel_KernelIdeal := trivial

/-- From memories agreeing on the argument, the idealized kernel's result array and the reference's returned array
    are both the argument array: the kernel copied it block by block, the reference handed it back. -/
theorem algebraic : Cert.algebraic_KernelIdeal_ReferenceIdeal := by
  intro m ρ m' ρ' _ hagree
  refine ⟨_, Cert.KernelIdeal.Copy.run (F := Ideal) m ρ, ?_⟩
  exact (θ_run Cert.ReferenceIdeal.defs _ _).mono (fun _ h c => ⟨(h c).trans (hagree c), h c⟩)
    (Cert.ReferenceIdeal.Returned.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
